-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .local _ .vmem, ⟨0, _⟩ => ⟨S1024x4096, .f32⟩
  | .local _ .vmem, ⟨1, _⟩ => ⟨S1024x4096, .f32⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x4096_S1024x4096_0_0 : ∀ a, (![0, 0] : Fin 2 → Nat) a + S1024x4096.size a ≤ S1024x4096.size a
  h_S1024x4096 : 0 < S1024x4096.numel
  inb_S4096x512_S4096x512_0_0 : ∀ a, (![0, 0] : Fin 2 → Nat) a + S4096x512.size a ≤ S4096x512.size a
  h_S4096x512 : 0 < S4096x512.numel
  inb_S1024x512_S1024x512_0_0 : ∀ a, (![0, 0] : Fin 2 → Nat) a + S1024x512.size a ≤ S1024x512.size a
  h_S1024x512 : 0 < S1024x512.numel
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .f32 = 32 ∨ (Rect.block (s := S4096x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .f32 = 32 ∨ (Rect.block (s := S4096x4096) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .ne arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.Spec.lean ====
/-
  The statement both programs are compared with: the product of two 4096 × 4096 matrices over the extended
  reals, entry (r, c) the sum over k of x(r, k) · w(k, c). Also the one algebraic step the comparison needs:
  a sum over the first n + s naturals splits into the sum over the first n and the sum over the next s, and a
  sum over `Fin n` of a function of the value is the sum over `range n`; over the extended reals these are
  facts about a commutative additive monoid and need no finiteness.
-/
import Mathlib
import Idealize.ShloMosaic.Lib.ValueIdx
import Idealize.ShloMosaic.PureOps.Ideal

noncomputable section

namespace Cert.Spec

open Idealize.ShloMosaic Idealize.ShloMosaic.ValueIdx

/-- The square shape of both arguments and of the result. -/
abbrev Sq : Shape := ⟨2, ![4096, 4096]⟩

/-- The term of the product at row `r`, column `c` and contraction position `k`, as a function of a natural
    number: zero past the contraction's extent, so that partial sums can be written over `Finset.range`. -/
def term (x w : Sq.Idx → EReal) (r c : Fin 4096) (k : ℕ) : EReal :=
  if h : k < 4096 then x (ix2 r ⟨k, h⟩) * w (ix2 ⟨k, h⟩ c) else 0

/-- The matrix product, entry by entry. -/
def prod (x w : Sq.Idx → EReal) : Sq.Idx → EReal :=
  fun i => ∑ k : Fin 4096, x (ix2 (i 0) k) * w (ix2 k (i 1))

/-- The product's entry is the sum of its terms over the first 4096 naturals. -/
theorem prod_eq_range (x w : Sq.Idx → EReal) (r c : Fin 4096) :
    prod x w (ix2 r c) = ∑ k ∈ Finset.range 4096, term x w r c k := by
  rw [Finset.sum_range]
  refine Finset.sum_congr rfl fun k _ => ?_
  unfold term
  rw [dif_pos k.isLt]

/-- A partial sum over the first `n + 1024` positions is the partial sum over the first `n` plus the next
    1024 terms, the latter written over `Fin 1024`. -/
theorem range_add_block (f : ℕ → EReal) (n : ℕ) :
    ∑ k ∈ Finset.range (n + 1024), f k = ∑ k ∈ Finset.range n, f k + ∑ k : Fin 1024, f (n + k.val) := by
  rw [Finset.sum_range_add]
  exact congrArg _ (Finset.sum_range fun k => f (n + k))

end Cert.Spec

end
-- ==== Proof.KernelValue.lean ====
/-
  The one-pass kernel, read as a value. Its grid is 4 × 8; at point (a, b) the body multiplies the row block
  x[1024a .. 1024a + 1023, all columns] by the column block w[all rows, 512b .. 512b + 511] into a zero
  accumulator and stores the 1024 × 512 product, which is written back as block (a, b) of the result. Entry
  (p, q) of that block is the sum over all 4096 positions k of x(1024a + p, k) · w(k, 512b + q): entry
  (1024a + p, 512b + q) of the whole matrix product. Every point writes back and the 32 blocks tile the
  result, so the result array ends as the matrix product of the two argument arrays.
-/
import proofs.«121965_g2000006775704942_pallasbulk_259_13_alg».proof.Defs
import proofs.«121965_g2000006775704942_pallasbulk_259_13_alg».proof.Proof.Gen.KernelIdeal.Value
import proofs.«121965_g2000006775704942_pallasbulk_259_13_alg».proof.Proof.LibDot
import proofs.«121965_g2000006775704942_pallasbulk_259_13_alg».proof.Proof.Spec
import Idealize.ShloMosaic.Lib.Pipeline.Value
import Idealize.ShloMosaic.Lib.ValueIdx
import Idealize.ShloMosaic.PureOps.Ideal.Laws

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The body's dimension numbers are those of a plain rows-by-columns product. -/
theorem plain : Cert.LibDot.Plain dot_S1024x4096_S4096x512_S1024x512_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

/-- The body's product of a row block and a column block, at entry (p, q): the sum over the whole contraction. -/
theorem pay_apply (x0 : Vec Ideal S1024x4096 .f32) (x1 : Vec Ideal S4096x512 .f32) (p : Fin 1024) (q : Fin 512) :
    k0_pay1 x0 x1 (ix2 p q) = ∑ k : Fin 4096, x0 (ix2 p k) * x1 (ix2 k q) := by
  unfold k0_pay1
  exact Cert.LibDot.matmul_ix2 plain none x0 x1 p q

/-- If `x0` is row block `a` of `X` and `x1` column block `b` of `W`, the body's product at a block entry is
    the whole matrix product at the array entry the block's rectangle sends it to. -/
theorem block_entry (X W : Cert.Spec.Sq.Idx → EReal) (x0 : Vec Ideal S1024x4096 .f32) (x1 : Vec Ideal S4096x512 .f32)
    (a b : ℕ)
    (h0 : ∀ (p : Fin 1024) (k : Fin 4096) (i : Cert.Spec.Sq.Idx), (i 0).val = a * 1024 + p.val → (i 1).val = k.val →
      x0 (ix2 p k) = X i)
    (h1 : ∀ (k : Fin 4096) (q : Fin 512) (i : Cert.Spec.Sq.Idx), (i 0).val = k.val → (i 1).val = b * 512 + q.val →
      x1 (ix2 k q) = W i)
    (j : S1024x512.Idx) (i : Cert.Spec.Sq.Idx) (hi0 : (i 0).val = a * 1024 + (j 0).val) (hi1 : (i 1).val = b * 512 + (j 1).val) :
    k0_pay1 x0 x1 j = Cert.Spec.prod X W i := by
  obtain ⟨p, q, rfl⟩ : ∃ (p : Fin 1024) (q : Fin 512), j = ix2 p q := ⟨j 0, j 1, eq_ix2 j⟩
  rw [pay_apply]
  unfold Cert.Spec.prod
  refine Finset.sum_congr rfl fun k _ => ?_
  rw [h0 p k (ix2 (i 0) k) hi0 rfl, h1 k q (ix2 k (i 1)) rfl hi1]

/-- The printed index maps, decided over the 32 points: the row block of `x` moves with the output's row block and
    spans all columns, the column block of `w` moves with the output's column block and spans all rows. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 3 ∧ win0_2.index t (1 : Fin 2) ≤ 7 :=
  (by decide +kernel : ∀ t : Fin grid0.N, _)

/-- Every block of the result is some point's. -/
theorem idx_onto : ∀ (q0 : Fin 4) (q1 : Fin 8), ∃ t : Fin cfg0.N, win0_2.index t = ![q0.val, q1.val] :=
  (by decide +kernel : ∀ (q0 : Fin 4) (q1 : Fin 8), ∃ t : Fin grid0.N, win0_2.index t = ![q0.val, q1.val])

/-- What point `t` writes back is block `t` of the matrix product of the argument arrays. -/
theorem flushed_eq (c : Dev nD) (t : Fin cfg0.N) :
    (dats m 0 c).flushed 2 t
      = ((cfg0.win 2).blk t).view.read (Elt Ideal) (Cert.Spec.prod (V m c main_arg0) (V m c main_arg1)) := by
  rw [Cert.KernelIdeal.Value.flushed2]
  unfold out0_2
  rw [View.canon_unit_zero hz]
  simp only [View.ld_unit_zero (S := S1024x4096) hz, View.ld_unit_zero (S := S4096x512) hz]
  obtain ⟨e0, e1, e2, e3, e4, e5⟩ := idx_facts t
  funext j
  show k0_pay1 (iblk m c 0 t) (iblk m c 1 t) j
    = Cert.Spec.prod (V m c main_arg0) (V m c main_arg1) (((cfg0.win 2).blk t).view.emb j)
  refine block_entry _ _ _ _ (win0_2.index t (0 : Fin 2)) (win0_2.index t (1 : Fin 2)) ?_ ?_ j _ ?_ ?_
  · intro p k i hi0 hi1
    unfold iblk
    rw [View.read_apply]
    show V m c main_arg0 _ = V m c main_arg0 i
    congr 1
    funext a; apply Fin.ext
    match a with
    | ⟨0, _⟩ => show win0_0.index t (0 : Fin 2) * 1024 + 1 * p.val = (i 0).val; omega
    | ⟨1, _⟩ => show win0_0.index t (1 : Fin 2) * 4096 + 1 * k.val = (i 1).val; omega
  · intro k q i hi0 hi1
    unfold iblk
    rw [View.read_apply]
    show V m c main_arg1 _ = V m c main_arg1 i
    congr 1
    funext a; apply Fin.ext
    match a with
    | ⟨0, _⟩ => show win0_1.index t (0 : Fin 2) * 4096 + 1 * k.val = (i 0).val; omega
    | ⟨1, _⟩ => show win0_1.index t (1 : Fin 2) * 512 + 1 * q.val = (i 1).val; omega
  · show win0_2.index t (0 : Fin 2) * 1024 + 1 * (j 0).val = win0_2.index t (0 : Fin 2) * 1024 + (j 0).val; omega
  · show win0_2.index t (1 : Fin 2) * 512 + 1 * (j 1).val = win0_2.index t (1 : Fin 2) * 512 + (j 1).val; omega

/-- An index of the result is in point `t`'s block iff each coordinate is in the block's range on its axis. -/
theorem mem_blk (t : Fin cfg0.N) (i : S4096x4096.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v0).slice (win0_2.rect t)).set ↔ _
  rw [View.set_slice_whole, Rect.mem_set_unit]
  exact Iff.rfl

/-- The 32 blocks cover the result: entry (r, c) lies in the block of the point with block indices (r / 1024, c / 512). -/
theorem cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- The result array after the run is the matrix product of the argument arrays. -/
theorem final (c : Dev nD) :
    (dats m 0 c).arrAt 2 cfg0.N = Cert.Spec.prod (V m c main_arg0) (V m c main_arg1) :=
  (dats m 0 c).arrAt_eq_of_cover 2 _ (fun t _ => flushed_eq m c t) cover

/-- The run, read: the result at the matrix product, the arguments unchanged. -/
theorem run : θ_run defs (onTc (τ := τ) (main (F := Ideal))) ⟨m, fun _ => 0, ρ⟩ fun r => ∀ c : Dev nD,
      r.2.mem ((c : Thread nD τ).loc main_v0)
        = Cert.Spec.prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.RefBody.lean ====
/-
  The accumulating kernel's body, run once in each of the two cases its conditionals meet. Its grid is 8 × 8 × 4,
  the last axis the contraction's: at a point whose last coordinate is 0 the body multiplies its two input blocks
  into a zero accumulator and stores the product over whatever the output's staging buffer held; at every other
  point it adds that product to what the buffer holds and stores the sum. (The second conditional's test is the
  negation of the first's, so exactly one branch runs and the output buffer is stored into at every point.)
  What each case leaves in the buffer is its one covering store's payload: the product, or the buffer's
  contents plus the product.
-/
import proofs.«121965_g2000006775704942_pallasbulk_259_13_alg».proof.Proof.Gen.ReferenceIdeal.Frame
import proofs.«121965_g2000006775704942_pallasbulk_259_13_alg».proof.Proof.Gen.ReferenceIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.ReferenceIdeal.Body

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- One staging buffer of the output window, through which what the body leaves is stated (for covering stores the
    choice does not matter). -/
abbrev VO : View sig .tc .vmem S512x512 .f32 := (Memref.whole cc0_stg2_0 : Memref sig .tc .vmem S512x512 .f32).view

set_option maxHeartbeats 1000000 in
/-- THE RESET CASE (first test holds, second fails): on whole staging memrefs, the inputs' at `x0`, `x1` and the
    output's at anything, the body runs to the continuation holding the inputs' as they were and the output's with
    the pieces its stores wrote. -/
noncomputable def runReset (c : Dev nD) (i : grid0.Coords) (arg3 : Memref sig .tc .vmem S512x1024 .f32) (harg3 : arg3.IsWhole)
    (arg4 : Memref sig .tc .vmem S1024x512 .f32) (harg4 : arg4.IsWhole) (arg5 : Memref sig .tc .vmem S512x512 .f32) (harg5 : arg5.IsWhole)
    (hc1 : k0_cond1 i = 1#1) (hc2 : ¬k0_cond2 i = 1#1)
    (x0 : Vec F S512x1024 .f32) (x1 : Vec F S1024x512 .f32) :
    { L : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc0__matmul_kernel_f32 i arg3 harg3 arg4 harg4 arg5 harg5) K } := by
  refine ⟨?_, fun E K => ?run⟩
  case run =>
    simp only [cc0__matmul_kernel_f32_eq_skeleton]; unfold cc0__matmul_kernel_f32_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- THE ACCUMULATING CASE (first test fails, second holds): the same, the output's staging memref at its running
    contents `xo`, which the body reads before it stores. -/
noncomputable def runAcc (c : Dev nD) (i : grid0.Coords) (arg3 : Memref sig .tc .vmem S512x1024 .f32) (harg3 : arg3.IsWhole)
    (arg4 : Memref sig .tc .vmem S1024x512 .f32) (harg4 : arg4.IsWhole) (arg5 : Memref sig .tc .vmem S512x512 .f32) (harg5 : arg5.IsWhole)
    (hc1 : ¬k0_cond1 i = 1#1) (hc2 : k0_cond2 i = 1#1)
    (x0 : Vec F S512x1024 .f32) (x1 : Vec F S1024x512 .f32) (xo : Vec F S512x512 .f32) :
    { L : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc0__matmul_kernel_f32 i arg3 harg3 arg4 harg4 arg5 harg5) K } := by
  refine ⟨?_, fun E K => ?run⟩
  case run =>
    simp only [cc0__matmul_kernel_f32_eq_skeleton]; unfold cc0__matmul_kernel_f32_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-! ## What each case leaves in the output's staging buffer -/

/-- The reset case's one store covers the block. -/
theorem coverReset (c : Dev nD) (i : grid0.Coords) (arg3 : Memref sig .tc .vmem S512x1024 .f32) (harg3 : arg3.IsWhole)
    (arg4 : Memref sig .tc .vmem S1024x512 .f32) (harg4 : arg4.IsWhole) (arg5 : Memref sig .tc .vmem S512x512 .f32) (harg5 : arg5.IsWhole)
    (hc1 : k0_cond1 i = 1#1) (hc2 : ¬k0_cond2 i = 1#1) (x0 : Vec F S512x1024 .f32) (x1 : Vec F S1024x512 .f32) (y : S512x512.Idx) :
    ∃ pc ∈ (runReset c i arg3 harg3 arg4 harg4 arg5 harg5 hc1 hc2 x0 x1).1, y ∈ pc.1.set :=
  View.cover_of_tiledL (runReset c i arg3 harg3 arg4 harg4 arg5 harg5 hc1 hc2 x0 x1).1 S512x512.size (by sl_kernel_rfl) y

/-- The reset case leaves the product of the two input blocks. -/
theorem leftReset (c : Dev nD) (i : grid0.Coords) (arg3 : Memref sig .tc .vmem S512x1024 .f32) (harg3 : arg3.IsWhole)
    (arg4 : Memref sig .tc .vmem S1024x512 .f32) (harg4 : arg4.IsWhole) (arg5 : Memref sig .tc .vmem S512x512 .f32) (harg5 : arg5.IsWhole)
    (hc1 : k0_cond1 i = 1#1) (hc2 : ¬k0_cond2 i = 1#1) (x0 : Vec F S512x1024 .f32) (x1 : Vec F S1024x512 .f32) :
    VO.read (Elt F) (VO.writes (Elt F) VO.junk (runReset c i arg3 harg3 arg4 harg4 arg5 harg5 hc1 hc2 x0 x1).1) = k0_pay1 x0 x1 := by
  rw [View.read_writes_eq_canon _ _ _ (coverReset c i arg3 harg3 arg4 harg4 arg5 harg5 hc1 hc2 x0 x1)]
  unfold runReset
  dsimp only
  rw [View.canon_unit_zero hz]
  simp only [View.readAt_eq_ld, harg3.read_unread, harg4.read_unread, View.ld_unit_zero (S := S512x1024) hz,
    View.ld_unit_zero (S := S1024x512) hz]

/-- The accumulating case's one store covers the block. -/
theorem coverAcc (c : Dev nD) (i : grid0.Coords) (arg3 : Memref sig .tc .vmem S512x1024 .f32) (harg3 : arg3.IsWhole)
    (arg4 : Memref sig .tc .vmem S1024x512 .f32) (harg4 : arg4.IsWhole) (arg5 : Memref sig .tc .vmem S512x512 .f32) (harg5 : arg5.IsWhole)
    (hc1 : ¬k0_cond1 i = 1#1) (hc2 : k0_cond2 i = 1#1) (x0 : Vec F S512x1024 .f32) (x1 : Vec F S1024x512 .f32) (xo : Vec F S512x512 .f32)
    (y : S512x512.Idx) :
    ∃ pc ∈ (runAcc c i arg3 harg3 arg4 harg4 arg5 harg5 hc1 hc2 x0 x1 xo).1, y ∈ pc.1.set :=
  View.cover_of_tiledL (runAcc c i arg3 harg3 arg4 harg4 arg5 harg5 hc1 hc2 x0 x1 xo).1 S512x512.size (by sl_kernel_rfl) y

/-- The accumulating case leaves the buffer's contents plus the product of the two input blocks. -/
theorem leftAcc (c : Dev nD) (i : grid0.Coords) (arg3 : Memref sig .tc .vmem S512x1024 .f32) (harg3 : arg3.IsWhole)
    (arg4 : Memref sig .tc .vmem S1024x512 .f32) (harg4 : arg4.IsWhole) (arg5 : Memref sig .tc .vmem S512x512 .f32) (harg5 : arg5.IsWhole)
    (hc1 : ¬k0_cond1 i = 1#1) (hc2 : k0_cond2 i = 1#1) (x0 : Vec F S512x1024 .f32) (x1 : Vec F S1024x512 .f32) (xo : Vec F S512x512 .f32) :
    VO.read (Elt F) (VO.writes (Elt F) VO.junk (runAcc c i arg3 harg3 arg4 harg4 arg5 harg5 hc1 hc2 x0 x1 xo).1) = k0_pay2 x0 x1 xo := by
  rw [View.read_writes_eq_canon _ _ _ (coverAcc c i arg3 harg3 arg4 harg4 arg5 harg5 hc1 hc2 x0 x1 xo)]
  unfold runAcc
  dsimp only
  rw [View.canon_unit_zero hz]
  simp only [View.readAt_eq_ld, harg3.read_unread, harg4.read_unread, harg5.read_unread, View.ld_unit_zero (S := S512x1024) hz,
    View.ld_unit_zero (S := S1024x512) hz, View.ld_unit_zero (S := S512x512) hz]

end Cert.ReferenceIdeal.Body

end
-- ==== Proof.RefFrame.lean ====
/-
  The accumulating kernel's run over its grid. Point `t` of the 256 has coordinates (t / 32, (t / 4) % 8, t % 4); the
  output block's index is (t / 32, (t / 4) % 8), so four consecutive points share one output block, which is written
  back after the fourth. What the output's staging buffer holds after point `t` is stated by recursion on the
  point: the product of the point's input blocks where t % 4 = 0, and what the point before left plus that product
  elsewhere. At a point with t % 4 ≠ 0 the buffer still holds what the point before left, because it was not
  written back in between. With the two runs of the body this gives the pipeline's body obligation, hence the run
  of the whole program, with every argument array unchanged.
-/
import proofs.«121965_g2000006775704942_pallasbulk_259_13_alg».proof.Proof.RefBody

set_option maxRecDepth 16384

noncomputable section

namespace Cert.ReferenceIdeal.Acc

open Cert.ReferenceIdeal Cert.ReferenceIdeal.Gen Cert.ReferenceIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two tests over the grid -/

/-- The first test holds exactly at the points whose contraction coordinate is 0. -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)

/-- The second test holds exactly at the other points. -/
theorem hcond2 : ∀ t : Fin cfg0.N, k0_cond2 (grid0.coords t) = 1#1 ↔ ¬t.val % 4 = 0 :=
  (by decide +kernel : ∀ t : Fin grid0.N, k0_cond2 (grid0.coords t) = 1#1 ↔ ¬t.val % 4 = 0)

/-- One of the two tests holds whatever the contraction coordinate, so the body stores into the output's staging
    buffer at every point: the window is never idle. -/
theorem live2 (i : grid0.Coords) : cfg0.idle 2 i = false := by
  have key : ∀ k : Fin 4,
      (!(Scalar.cmpi .ne (Scalar.extui (Scalar.cmpi .eq (BitVec.ofNat 32 k.val) 0#32)) 0#32 == 1#1)
        && !(Scalar.cmpi .ne (Scalar.extui (Scalar.cmpi .ne (BitVec.ofNat 32 k.val) 0#32)) 0#32 == 1#1)) = false := by
    decide +kernel
  exact key (i 2)

/-! ## What the output's staging buffer holds after each point -/

/-- The running contents: the product of the point's blocks at the first point of each run of four, and what the
    point before left plus the product at the others. -/
def acc (c : Dev nD) : (n : ℕ) → n < cfg0.N → Vec F S512x512 .f32
  | 0, hn => k0_pay1 (iblk m c 0 ⟨0, hn⟩) (iblk m c 1 ⟨0, hn⟩)
  | n + 1, hn =>
    if (n + 1) % 4 = 0 then k0_pay1 (iblk m c 0 ⟨n + 1, hn⟩) (iblk m c 1 ⟨n + 1, hn⟩)
    else k0_pay2 (iblk m c 0 ⟨n + 1, hn⟩) (iblk m c 1 ⟨n + 1, hn⟩) (acc c n (Nat.lt_of_succ_lt hn))

theorem acc_reset (c : Dev nD) (t : Fin cfg0.N) (h0 : t.val % 4 = 0) :
    acc m c t.val t.isLt = k0_pay1 (iblk m c 0 t) (iblk m c 1 t) := by
  obtain ⟨n, hn⟩ := t
  cases n with
  | zero => exact rfl
  | succ n => exact (if_pos h0).trans rfl

theorem acc_step (c : Dev nD) (t : Fin cfg0.N) (h0 : ¬t.val % 4 = 0) :
    acc m c t.val t.isLt
      = k0_pay2 (iblk m c 0 t) (iblk m c 1 t) (acc m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The arrays as the region finds them; after the body at point `t` each input's buffer at its block and the
    output's at the running contents; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = acc m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point that is not the first of its run of four, the output's current staging buffer holds what the body left
    at the point before: the buffer was not written back in between, and the window is live and uncut. -/
theorem before0_2_step (c : Dev nD) (t : Fin cfg0.N) (h0 : ¬t.val % 4 = 0) (d) :
    (dats m 0 c).before 2 t d = acc m c (t.val - 1) (Nat.lt_of_le_of_lt (Nat.sub_le _ _) t.isLt) := by
  rw [Dat.before_out_kept _ 2 rfl t (by omega)
    (Bool.eq_false_iff.mpr fun h => by have := (flush0_2 _).mp h; dsimp only at this; omega)
    live2 (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 800000 in
/-- The body at any point: the inputs' memrefs hold their blocks; the point's position in its run of four says which
    case it is in; in the accumulating case the output's memref holds what the point before left; so that case's
    run applies, and its covering store leaves the running contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  by_cases h0 : t.val % 4 = 0
  · have hc1 : k0_cond1 (grid0.coords t) = 1#1 := (hcond1 t).mpr h0
    have hc2 : ¬k0_cond2 (grid0.coords t) = 1#1 := fun h => (hcond2 t).mp h h0
    rw [acc_reset m c t h0]
    iintro ⟨HΦ, Ho, ⟨%d0, H0⟩, ⟨%d1, H1⟩, ⟨%d2, H2⟩⟩
    iapply ((runReset c (grid0.coords t) _ _ _ _ _ _ hc1 hc2 (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro
    exact (View.read_writes_of_cover _ _ _ _ _ (coverReset c _ _ _ _ _ _ _ hc1 hc2 _ _)).trans
      (leftReset c _ _ _ _ _ _ _ hc1 hc2 _ _)
  · have hc1 : ¬k0_cond1 (grid0.coords t) = 1#1 := fun h => h0 ((hcond1 t).mp h)
    have hc2 : k0_cond2 (grid0.coords t) = 1#1 := (hcond2 t).mpr h0
    rw [acc_step m c t h0]
    simp only [before0_2_step m c t h0]
    iintro ⟨HΦ, Ho, ⟨%d0, H0⟩, ⟨%d1, H1⟩, ⟨%d2, H2⟩⟩
    iapply ((runAcc c (grid0.coords t) _ _ _ _ _ _ hc1 hc2 (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro
    exact (View.read_writes_of_cover _ _ _ _ _ (coverAcc c _ _ _ _ _ _ _ hc1 hc2 _ _ _)).trans
      (leftAcc c _ _ _ _ _ _ _ hc1 hc2 _ _ _)

/-- The library's body obligation, at every point. -/
theorem body_obligation (c : Dev nD) : BodyObligation (dats (F := F) m 0 c) (defs₀ (F := F)) Variants.none () Set.univ := fun t => by
  rw [bigSep_W0, bigSep_W0]
  simp only [show idle0 2 (grid0.coords t) = false from live2 _]
  exact sound_body m c t

/-! ## The run and the frame -/

set_option backward.isDefEq.respectTransparency.types false in
/-- Every weakly fair execution of the program terminates, and every final state has every array of the pipeline at
    what the library computes from the proof data. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.ReferenceIdeal.Acc

end
-- ==== Proof.RefValue.lean ====
/-
  The accumulating kernel, read as a value. At point `t`, with (a, b, s) = (t / 32, (t / 4) % 8, t % 4), the
  input blocks are x[512a .. 512a + 511, 1024s .. 1024s + 1023] and w[1024s .. 1024s + 1023, 512b .. 512b + 511], and
  their product at (p, q) is the sum of the terms x(512a + p, k) · w(k, 512b + q) over the 1024 positions k of
  slab s. By induction on the point, the output's staging buffer after point `t` holds at (p, q) the sum of those
  terms over the first 1024 (s + 1) positions: the first point of a run of four stores slab 0's sum, each later
  point adds its slab's (a sum over an initial segment plus the sum over the next 1024 positions is the sum over
  the longer segment — no finiteness is needed). The block is written back after the fourth point, when the sum
  runs over all 4096 positions: entry (512a + p, 512b + q) of the matrix product. The 64 blocks written back tile
  the result, so the result array ends as the matrix product of the two argument arrays.
-/
import proofs.«121965_g2000006775704942_pallasbulk_259_13_alg».proof.Defs
import proofs.«121965_g2000006775704942_pallasbulk_259_13_alg».proof.Proof.RefFrame
import proofs.«121965_g2000006775704942_pallasbulk_259_13_alg».proof.Proof.LibDot
import proofs.«121965_g2000006775704942_pallasbulk_259_13_alg».proof.Proof.Spec
import Idealize.ShloMosaic.Lib.Pipeline.Value
import Idealize.ShloMosaic.Lib.ValueIdx
import Idealize.ShloMosaic.PureOps.Ideal.Laws

noncomputable section

namespace Cert.ReferenceIdeal.Whole

open Cert.ReferenceIdeal Cert.ReferenceIdeal.Gen Cert.ReferenceIdeal.Acc
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's dimension numbers are those of a plain rows-by-columns product. -/
theorem plain : Cert.LibDot.Plain dot_S512x1024_S1024x512_S512x512_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

/-- The product of the two input blocks at (p, q): the sum over the blocks' 1024 shared positions. -/
theorem pay1_apply (x0 : Vec Ideal S512x1024 .f32) (x1 : Vec Ideal S1024x512 .f32) (p q : Fin 512) :
    k0_pay1 x0 x1 (ix2 p q) = ∑ k : Fin 1024, x0 (ix2 p k) * x1 (ix2 k q) := by
  unfold k0_pay1
  exact Cert.LibDot.matmul_ix2 plain none x0 x1 p q

/-- The accumulating store's payload at (p, q): the buffer's entry plus the product's. -/
theorem pay2_apply (x0 : Vec Ideal S512x1024 .f32) (x1 : Vec Ideal S1024x512 .f32) (xo : Vec Ideal S512x512 .f32) (p q : Fin 512) :
    k0_pay2 x0 x1 xo (ix2 p q) = xo (ix2 p q) + k0_pay1 x0 x1 (ix2 p q) := by
  unfold k0_pay2
  rw [shapeCast_self]
  rfl

/-- The printed index maps in closed form, decided over the 256 points. -/
theorem idx_facts : ∀ t : Fin cfg0.N, win0_0.index t (0 : Fin 2) = t.val / 32
    ∧ win0_0.index t (1 : Fin 2) = t.val % 4
    ∧ win0_1.index t (0 : Fin 2) = t.val % 4
    ∧ win0_1.index t (1 : Fin 2) = t.val / 4 % 8
    ∧ win0_2.index t (0 : Fin 2) = t.val / 32
    ∧ win0_2.index t (1 : Fin 2) = t.val / 4 % 8 :=
  (by decide +kernel : ∀ t : Fin grid0.N, _)

/-- The first input block at point `t`, read at (p, k), is `x` at row 512 (t / 32) + p and column 1024 (t % 4) + k. -/
theorem x_block (c : Dev nD) (t : Fin cfg0.N) (p : Fin 512) (k : Fin 1024) (i : Cert.Spec.Sq.Idx)
    (hi0 : (i 0).val = t.val / 32 * 512 + p.val) (hi1 : (i 1).val = t.val % 4 * 1024 + k.val) :
    (iblk m c 0 t : Vec Ideal S512x1024 .f32) (ix2 p k) = V m c main_arg0 i := by
  obtain ⟨e0, e1, e2, e3, e4, e5⟩ := idx_facts t
  unfold iblk
  rw [View.read_apply]
  show V m c main_arg0 _ = V m c main_arg0 i
  congr 1
  funext a; apply Fin.ext
  match a with
  | ⟨0, _⟩ => show win0_0.index t (0 : Fin 2) * 512 + 1 * p.val = (i 0).val; omega
  | ⟨1, _⟩ => show win0_0.index t (1 : Fin 2) * 1024 + 1 * k.val = (i 1).val; omega

/-- The second input block at point `t`, read at (k, q), is `w` at row 1024 (t % 4) + k and column 512 ((t / 4) % 8) + q. -/
theorem w_block (c : Dev nD) (t : Fin cfg0.N) (k : Fin 1024) (q : Fin 512) (i : Cert.Spec.Sq.Idx)
    (hi0 : (i 0).val = t.val % 4 * 1024 + k.val) (hi1 : (i 1).val = t.val / 4 % 8 * 512 + q.val) :
    (iblk m c 1 t : Vec Ideal S1024x512 .f32) (ix2 k q) = V m c main_arg1 i := by
  obtain ⟨e0, e1, e2, e3, e4, e5⟩ := idx_facts t
  unfold iblk
  rw [View.read_apply]
  show V m c main_arg1 _ = V m c main_arg1 i
  congr 1
  funext a; apply Fin.ext
  match a with
  | ⟨0, _⟩ => show win0_1.index t (0 : Fin 2) * 1024 + 1 * k.val = (i 0).val; omega
  | ⟨1, _⟩ => show win0_1.index t (1 : Fin 2) * 512 + 1 * q.val = (i 1).val; omega

/-- The product of point `t`'s blocks at (p, q) is the sum of the matrix product's terms at the array entry (r, cc)
    the output block sends (p, q) to, over the 1024 positions of slab t % 4. -/
theorem slab (c : Dev nD) (t : Fin cfg0.N) (p q : Fin 512) (r cc : Fin 4096)
    (hr : r.val = t.val / 32 * 512 + p.val) (hc : cc.val = t.val / 4 % 8 * 512 + q.val) :
    k0_pay1 (iblk m c 0 t) (iblk m c 1 t) (ix2 p q)
      = ∑ k : Fin 1024, Cert.Spec.term (V m c main_arg0) (V m c main_arg1) r cc (t.val % 4 * 1024 + k.val) := by
  refine (pay1_apply _ _ p q).trans ?_
  refine Finset.sum_congr rfl fun k _ => ?_
  have hk : t.val % 4 * 1024 + k.val < 4096 := by have := k.isLt; omega
  unfold Cert.Spec.term
  rw [dif_pos hk]
  rw [x_block m c t p k (ix2 r ⟨t.val % 4 * 1024 + k.val, hk⟩) hr rfl,
    w_block m c t k q (ix2 ⟨t.val % 4 * 1024 + k.val, hk⟩ cc) rfl hc]

/-- THE RUNNING SUM. After point `n` the output's staging buffer holds, at (p, q), the sum of the matrix product's
    terms at the array entry the block sends (p, q) to, over the first 1024 (n % 4 + 1) positions. -/
theorem acc_eq (c : Dev nD) : ∀ (n : ℕ) (hn : n < cfg0.N) (p q : Fin 512) (r cc : Fin 4096),
    r.val = n / 32 * 512 + p.val → cc.val = n / 4 % 8 * 512 + q.val →
    acc m c n hn (ix2 p q)
      = ∑ k ∈ Finset.range ((n % 4 + 1) * 1024), Cert.Spec.term (V m c main_arg0) (V m c main_arg1) r cc k
  | 0, hn, p, q, r, cc, hr, hc => by
    rw [acc_reset m c ⟨0, hn⟩ rfl, slab m c ⟨0, hn⟩ p q r cc hr hc]
    show ∑ k : Fin 1024, Cert.Spec.term _ _ r cc (0 % 4 * 1024 + k.val) = ∑ k ∈ Finset.range ((0 % 4 + 1) * 1024), _
    rw [show (0 % 4 + 1) * 1024 = 0 + 1024 from rfl, Cert.Spec.range_add_block, Finset.range_zero, Finset.sum_empty, zero_add]
  | n + 1, hn, p, q, r, cc, hr, hc => by
    by_cases h0 : (n + 1) % 4 = 0
    · rw [acc_reset m c ⟨n + 1, hn⟩ h0, slab m c ⟨n + 1, hn⟩ p q r cc hr hc]
      show ∑ k : Fin 1024, Cert.Spec.term _ _ r cc ((n + 1) % 4 * 1024 + k.val) = _
      rw [h0, show (0 + 1) * 1024 = 0 + 1024 from rfl, Cert.Spec.range_add_block, Finset.range_zero, Finset.sum_empty, zero_add]
    · have hdiv : (n + 1) / 32 = n / 32 ∧ (n + 1) / 4 % 8 = n / 4 % 8 ∧ (n + 1) % 4 = n % 4 + 1 := by omega
      rw [acc_step m c ⟨n + 1, hn⟩ h0]
      refine (pay2_apply _ _ _ p q).trans ?_
      show acc m c n _ (ix2 p q) + k0_pay1 (iblk m c 0 ⟨n + 1, hn⟩) (iblk m c 1 ⟨n + 1, hn⟩) (ix2 p q) = _
      rw [acc_eq c n _ p q r cc (by omega) (by omega), slab m c ⟨n + 1, hn⟩ p q r cc hr hc]
      show _ + ∑ k : Fin 1024, Cert.Spec.term _ _ r cc ((n + 1) % 4 * 1024 + k.val) = _
      rw [hdiv.2.2, show (n % 4 + 1 + 1) * 1024 = (n % 4 + 1) * 1024 + 1024 by ring, Cert.Spec.range_add_block]

/-- At the last point of a run of four the buffer holds, at a block entry, the whole matrix product at the array entry
    the block's rectangle sends it to. -/
theorem entry_eq (c : Dev nD) (t : Fin cfg0.N) (h3 : t.val % 4 = 3) (j : S512x512.Idx) (i : Cert.Spec.Sq.Idx)
    (hi0 : (i 0).val = t.val / 32 * 512 + (j 0).val) (hi1 : (i 1).val = t.val / 4 % 8 * 512 + (j 1).val) :
    acc m c t.val t.isLt j = Cert.Spec.prod (V m c main_arg0) (V m c main_arg1) i := by
  obtain ⟨p, q, rfl⟩ : ∃ (p q : Fin 512), j = ix2 p q := ⟨j 0, j 1, eq_ix2 j⟩
  obtain ⟨r, cc, rfl⟩ : ∃ (r cc : Fin 4096), i = ix2 r cc := ⟨i 0, i 1, eq_ix2 (n0 := 4096) (n1 := 4096) i⟩
  rw [Cert.Spec.prod_eq_range, acc_eq m c t.val t.isLt p q r cc hi0 hi1, h3]

/-- What a point that writes back writes is its block of the matrix product of the argument arrays. -/
theorem flushed_eq (c : Dev nD) (t : Fin cfg0.N) (hf : (cfg0.win 2).flush t = true) :
    (dats m 0 c).flushed 2 t
      = ((cfg0.win 2).blk t).view.read (Elt Ideal) (Cert.Spec.prod (V m c main_arg0) (V m c main_arg1)) := by
  have h3 : t.val % 4 = 3 := (flush0_2 t).mp hf
  obtain ⟨e0, e1, e2, e3, e4, e5⟩ := idx_facts t
  show (cfg0.win 2).cut (grid0.coords t) ((dats m 0 c).after 2 t) = _
  rw [after0_2]
  funext j
  show acc m c t.val t.isLt j
    = Cert.Spec.prod (V m c main_arg0) (V m c main_arg1) (((cfg0.win 2).blk t).view.emb j)
  refine entry_eq m c t h3 j _ ?_ ?_
  · show win0_2.index t (0 : Fin 2) * 512 + 1 * (j 0).val = t.val / 32 * 512 + (j 0).val; omega
  · show win0_2.index t (1 : Fin 2) * 512 + 1 * (j 1).val = t.val / 4 % 8 * 512 + (j 1).val; omega

/-- An index of the result is in point `t`'s block iff each coordinate is in the block's range on its axis. -/
theorem mem_blk (t : Fin cfg0.N) (i : S4096x4096.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v0).slice (win0_2.rect t)).set ↔ _
  rw [View.set_slice_whole, Rect.mem_set_unit]
  exact Iff.rfl

/-- The blocks written back cover the result: entry (r, c) lies in the block of the last point of the run of four
    with block indices (r / 512, c / 512). -/
theorem cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 256 := N_0
  let t : Fin cfg0.N := ⟨32 * ((i 0).val / 512) + 4 * ((i 1).val / 512) + 3, by rw [hN]; omega⟩
  have ht : t.val = 32 * ((i 0).val / 512) + 4 * ((i 1).val / 512) + 3 := rfl
  obtain ⟨e0, e1, e2, e3, e4, e5⟩ := idx_facts t
  refine ⟨t, (flush0_2 t).mpr (by omega), ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The result array after the run is the matrix product of the argument arrays. -/
theorem final (c : Dev nD) :
    (dats m 0 c).arrAt 2 cfg0.N = Cert.Spec.prod (V m c main_arg0) (V m c main_arg1) :=
  (dats m 0 c).arrAt_eq_of_cover 2 _ (flushed_eq m c) cover

/-- The run, read: the result at the matrix product, the arguments unchanged. -/
theorem run : θ_run defs (onTc (τ := τ) (main (F := Ideal))) ⟨m, fun _ => 0, ρ⟩ fun r => ∀ c : Dev nD,
      r.2.mem ((c : Thread nD τ).loc main_v0)
        = Cert.Spec.prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.ReferenceIdeal.Whole

end
-- ==== Proof.lean ====
/-
  Two ways of multiplying two 4096 × 4096 matrices agree over the extended reals.

  The kernel walks a 4 × 8 grid; at each point one product of a 1024 × 4096 row block of `x` with a 4096 × 512
  column block of `w`, into a zero accumulator, is stored as one block of the result: every entry is the sum of
  x(r, k) · w(k, c) over all 4096 positions k. The reference walks an 8 × 8 × 4 grid whose last axis cuts the
  contraction into four slabs of 1024 positions: the first point of each run of four stores its slab's partial
  product in the 512 × 512 output block, the next three add theirs, and the block is written back after the fourth.
  An entry of the reference's result is therefore ((S₀ + S₁) + S₂) + S₃ with Sₛ the sum of the terms of slab s, and
  that is the sum over all 4096 positions because addition of extended reals is associative: a sum over an initial
  segment plus the sum over the next 1024 positions is the sum over the longer segment. No finiteness of the
  inputs is used.

  Both result arrays are shown to be ONE function of the argument arrays (`Cert.Spec.prod`): the kernel's in
  Proof/KernelValue.lean, over the generated blockwise value leg; the reference's in Proof/RefValue.lean, over the
  run of the program proved in Proof/RefBody.lean (the body in each of its two cases) and Proof/RefFrame.lean (the
  running contents of the output block, point by point, and the program's run). The idealization rewrote nothing,
  so the kernel's idealized form is the kernel's own text read over the extended reals.
-/
import proofs.«121965_g2000006775704942_pallasbulk_259_13_alg».proof.Defs
import proofs.«121965_g2000006775704942_pallasbulk_259_13_alg».proof.Proof.Gen.Kernel
import proofs.«121965_g2000006775704942_pallasbulk_259_13_alg».proof.Proof.Gen.Kernel.Skeleton
import proofs.«121965_g2000006775704942_pallasbulk_259_13_alg».proof.Proof.Gen.Kernel.Launch
import proofs.«121965_g2000006775704942_pallasbulk_259_13_alg».proof.Proof.Gen.Kernel.Points
import proofs.«121965_g2000006775704942_pallasbulk_259_13_alg».proof.Proof.Gen.Kernel.Frame
import proofs.«121965_g2000006775704942_pallasbulk_259_13_alg».proof.Proof.Gen.KernelIdeal
import proofs.«121965_g2000006775704942_pallasbulk_259_13_alg».proof.Proof.Gen.KernelIdeal.Skeleton
import proofs.«121965_g2000006775704942_pallasbulk_259_13_alg».proof.Proof.Gen.KernelIdeal.Launch
import proofs.«121965_g2000006775704942_pallasbulk_259_13_alg».proof.Proof.Gen.KernelIdeal.Points
import proofs.«121965_g2000006775704942_pallasbulk_259_13_alg».proof.Proof.Gen.KernelIdeal.Frame
import proofs.«121965_g2000006775704942_pallasbulk_259_13_alg».proof.Proof.Gen.ReferenceIdeal
import proofs.«121965_g2000006775704942_pallasbulk_259_13_alg».proof.Proof.Gen.ReferenceIdeal.Skeleton
import proofs.«121965_g2000006775704942_pallasbulk_259_13_alg».proof.Proof.Gen.ReferenceIdeal.Launch
import proofs.«121965_g2000006775704942_pallasbulk_259_13_alg».proof.Proof.Gen.ReferenceIdeal.Points
import proofs.«121965_g2000006775704942_pallasbulk_259_13_alg».proof.Proof.Gen.ReferenceIdeal.Frame
import proofs.«121965_g2000006775704942_pallasbulk_259_13_alg».proof.Proof.Gen.Pre_finite_inputs
import proofs.«121965_g2000006775704942_pallasbulk_259_13_alg».proof.Proof.KernelValue
import proofs.«121965_g2000006775704942_pallasbulk_259_13_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and its arguments end unchanged. -/
theorem frame_k : Cert.frame_Kernel := fun m ρ _ => Cert.Kernel.Gen.frame m ρ

/-- The same text read over the extended reals runs, and its arguments end unchanged. -/
theorem frame_ki : Cert.frame_KernelIdeal := fun m ρ _ => Cert.KernelIdeal.Gen.frame m ρ

/-- The accumulating reference runs, and its arguments end unchanged. -/
theorem frame_ri : Cert.frame_ReferenceIdeal := fun m ρ _ => Cert.ReferenceIdeal.Acc.frame m ρ

/-- Nothing was rewritten, so there is nothing to preserve. -/
theorem preserves : Cert.preserves_Kernel_KernelIdeal := trivial

/-- From memories that agree on the arguments both programs end with the matrix product of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Whole.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
